-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x512 : Shape := ⟨3, ![16, 8192, 512]⟩
abbrev S_ : Shape := ⟨0, ![]⟩

class Facts : Prop where
  bcast_S_S16x8192x512 : S_.BroadcastsInDim S16x8192x512 (![] : Fin 0 → Fin S16x8192x512.rank)
  reducesTo_S16x8192x512_S_d0_1_2 : S16x8192x512.ReducesTo [0, 1, 2] S_
  h_S_ : 0 < S_.numel

variable [Facts]

def fn {F : FTy → Type} [FloatOps F] (main_arg0 : FVec F S16x8192x512 .f32) : IVec S_ 1 :=
  let main_v0 : FVec F S16x8192x512 .f32 := Host.absf main_arg0
  let main_cst : FVec F S_ .f32 := constant S_ .f32 0x7F800000#32
  let main_v1 : FVec F S16x8192x512 .f32 := broadcastInDim S16x8192x512 ![] bcast_S_S16x8192x512 main_cst
  let main_v2 : IVec S16x8192x512 1 := cmpf .olt main_v0 main_v1
  let main_c : IVec S_ 1 := constantI S_ 1 1#1
  let main_v3 : IVec S_ 1 := (fun x v => Host.reduce IntOp.andi x v reducesTo_S16x8192x512_S_d0_1_2 h_S_) main_v2 main_c
  main_v3
-- ==== Kernel.lean ====
abbrev S16x8192x512 : Shape := ⟨3, ![16, 8192, 512]⟩
abbrev S16x4096x1024 : Shape := ⟨3, ![16, 4096, 1024]⟩
abbrev S16x2x4096x512 : Shape := ⟨4, ![16, 2, 4096, 512]⟩
abbrev S1x1024x1024 : Shape := ⟨3, ![1, 1024, 1024]⟩
abbrev S1x2x1024x512 : Shape := ⟨4, ![1, 2, 1024, 512]⟩
abbrev S1024x1024 : Shape := ⟨2, ![1024, 1024]⟩
abbrev S1024x512 : Shape := ⟨2, ![1024, 512]⟩
abbrev S1x1x1024x512 : Shape := ⟨4, ![1, 1, 1024, 512]⟩

abbrev nBuf : Space → Nat
  | .hbm => 4
  | .vmem => 4
  | .smem => 0
  | _ => 0

abbrev bufTy : (tb : Table) → Fin (tcTables nBuf tb) → BufTy
  | .hbm, ⟨0, _⟩ => ⟨S16x8192x512, .f32⟩
  | .hbm, ⟨1, _⟩ => ⟨S16x4096x1024, .f32⟩
  | .hbm, ⟨2, _⟩ => ⟨S16x2x4096x512, .f32⟩
  | .hbm, ⟨3, _⟩ => ⟨S16x8192x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x2x1024x512, .f32⟩
  | .local _ .vmem, ⟨3, _⟩ => ⟨S1x2x1024x512, .f32⟩
  | _, _ => ⟨S16x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x8192x512_S16x4096x1024 : S16x8192x512.ShapeCasts S16x4096x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S1024x1024_o0_0_S1024x512 : S1024x1024.Slices ![0, 0] S1024x512
  slices_S1024x1024_o0_512_S1024x512 : S1024x1024.Slices ![0, 512] S1024x512
  inb_S1x2x1024x512_S1x1x1024x512_0_0_0_0 : ∀ a, (![0, 0, 0, 0] : Fin 4 → Nat) a + S1x1x1024x512.size a ≤ S1x2x1024x512.size a
  h_S1x1x1024x512 : 0 < S1x1x1024x512.numel
  shapeCasts_S1x1x1024x512_S1024x512 : S1x1x1024x512.ShapeCasts S1024x512
  shapeCasts_S1024x512_S1x1x1024x512 : S1024x512.ShapeCasts S1x1x1024x512
  inb_S1x2x1024x512_S1x1x1024x512_0_1_0_0 : ∀ a, (![0, 1, 0, 0] : Fin 4 → Nat) a + S1x1x1024x512.size a ≤ S1x2x1024x512.size a
  shapeCasts_S16x2x4096x512_S16x8192x512 : S16x2x4096x512.ShapeCasts S16x8192x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x4096x1024.size a
  hwx0_0 : ∀ i : grid0.Coords, EltTy.bits .f32 = 32 ∨ (Rect.block (s := S16x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024x512.size a ≤ S16x2x4096x512.size a
  hwx0_1 : ∀ i : grid0.Coords, EltTy.bits .f32 = 32 ∨ (Rect.block (s := S16x2x4096x512) S1x2x1024x512.size (cc0_transform_1 i) (hinb0_1 i)).WholeWords (EltTy.packing .f32)

variable [Facts₀]

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x8192x512 : Shape := ⟨3, ![16, 8192, 512]⟩
abbrev S16x4096x2x512 : Shape := ⟨4, ![16, 4096, 2, 512]⟩
abbrev S16x4096x1x512 : Shape := ⟨4, ![16, 4096, 1, 512]⟩
abbrev S16x4096x512 : Shape := ⟨3, ![16, 4096, 512]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16x8192x512, .f32⟩
  | .hbm, ⟨1, _⟩ => ⟨S16x4096x2x512, .f32⟩
  | .hbm, ⟨2, _⟩ => ⟨S16x4096x1x512, .f32⟩
  | .hbm, ⟨3, _⟩ => ⟨S16x4096x512, .f32⟩
  | .hbm, ⟨4, _⟩ => ⟨S16x4096x1x512, .f32⟩
  | .hbm, ⟨5, _⟩ => ⟨S16x4096x512, .f32⟩
  | .hbm, ⟨6, _⟩ => ⟨S16x4096x512, .f32⟩
  | .hbm, ⟨7, _⟩ => ⟨S_, .f32⟩
  | .hbm, ⟨8, _⟩ => ⟨S16x4096x512, .f32⟩
  | .hbm, ⟨9, _⟩ => ⟨S16x4096x512, .f32⟩
  | .hbm, ⟨10, _⟩ => ⟨S16x4096x512, .f32⟩
  | .hbm, ⟨11, _⟩ => ⟨S_, .f32⟩
  | .hbm, ⟨12, _⟩ => ⟨S16x4096x512, .f32⟩
  | .hbm, ⟨13, _⟩ => ⟨S16x4096x512, .f32⟩
  | .hbm, ⟨14, _⟩ => ⟨S16x8192x512, .f32⟩
  | _, _ => ⟨S16x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  shapeCasts_S16x8192x512_S16x4096x2x512 : S16x8192x512.ShapeCasts S16x4096x2x512
  slices_S16x4096x2x512_S16x4096x1x512_0_0_0_0 : S16x4096x2x512.Slices ![0, 0, 0, 0] S16x4096x1x512
  shapeCasts_S16x4096x1x512_S16x4096x512 : S16x4096x1x512.ShapeCasts S16x4096x512
  slices_S16x4096x2x512_S16x4096x1x512_0_0_1_0 : S16x4096x2x512.Slices ![0, 0, 1, 0] S16x4096x1x512
  bcast_S_S16x4096x512 : S_.BroadcastsInDim S16x4096x512 (![] : Fin 0 → Fin S16x4096x512.rank)
  concatenates_S16x4096x512_S16x4096x512_S16x8192x512_d1 : Shape.Concatenates [S16x4096x512, S16x4096x512] S16x8192x512 1

variable [Facts₀]

class Facts : Prop extends Facts₀ where

variable [Facts]
-- ==== Proof.Haar.lean ====
/-
  The Haar (db1) wavelet step along the time axis, as one function of the signal.

  A signal x[b, s, c] (batch, time, channel) with an even number 2K of time samples is read as K pairs
  (x[b, 2k, c], x[b, 2k+1, c]). One butterfly sends a pair (e, o) to the scaled sum (e + o)·κ (band 0, the
  approximation) and the scaled difference (e − o)·κ (band 1, the detail), with κ the single-precision number nearest
  1/√2. The transform lists, along the time axis, the K approximations followed by the K details.

  Three arrangements of the same numbers occur:
  * dwt x — the result [B, 2K, C]: entry (b, s, c) is band s / K of pair s % K;
  * bands P — the bands kept apart [B, 2, K, C], computed from the signal with each pair laid side by side along the
    last axis, P[b, k, l] with l < C the even sample's channel l and l ≥ C the odd sample's channel l − C;
  * and the row-major re-readings between them: [B, 2K, C] → [B, K, 2C] puts a pair side by side, and
    [B, 2, K, C] → [B, 2K, C] lists band 0 before band 1 — bands_of_pairs says that the composite is dwt.

  Nothing here uses a law of arithmetic: the same two additions, one subtraction and two products are applied to the
  same samples on both sides, so the statements hold for any float instance.
-/
import Idealize.ShloMosaic.Lib.ValueIdx
import Idealize.ShloMosaic.Lib.Pipeline.Value

noncomputable section

namespace Haar

open Idealize.ShloMosaic Idealize.ShloMosaic.ValueIdx

variable {F : FTy → Type} [FloatOps F]

/-- The signal and the result: [batch 16, time 8192, channel 512]. -/
abbrev Signal : Shape := ⟨3, ![16, 8192, 512]⟩
/-- The signal with each pair of consecutive samples side by side: [16, 4096, 2·512]. -/
abbrev Pairs : Shape := ⟨3, ![16, 4096, 1024]⟩
/-- The two bands kept apart: [16, band 2, 4096, 512]. -/
abbrev Bands : Shape := ⟨4, ![16, 2, 4096, 512]⟩

/-- The filter coefficient, the single-precision number nearest 1/√2. -/
def coeff : F .f32 := FloatOps.ofBits .f32 0x3F3504F3#32

/-- One butterfly: band 0 of the pair (e, o) is (e + o)·κ, band 1 is (e − o)·κ. -/
def butterfly (band : Nat) (e o : F .f32) : F .f32 :=
  if band = 0 then FloatOps.mulf (FloatOps.addf e o) coeff else FloatOps.mulf (FloatOps.subf e o) coeff

/-- Equal bands of equal pairs are equal. -/
theorem butterfly_congr {h h' : Nat} {e e' o o' : F .f32} (hh : h = h') (he : e = e') (ho : o = o') :
    butterfly h e o = butterfly h' e' o' := by
  subst hh he ho; rfl

/-- The bands from the pairs laid side by side, for any number of batches and pairs: entry (b, h, k, c) is band h of
    the pair (P[b, k, c], P[b, k, 512 + c]). -/
def bands {B K : Nat} (P : (⟨3, ![B, K, 1024]⟩ : Shape).Idx → F .f32) : (⟨4, ![B, 2, K, 512]⟩ : Shape).Idx → F .f32 :=
  fun i => butterfly (i 1).val
    (P (ix3 (i 0) (i 2) ⟨(i 3).val, by have h : (i 3).val < 512 := (i 3).isLt; omega⟩))
    (P (ix3 (i 0) (i 2) ⟨512 + (i 3).val, by have h : (i 3).val < 512 := (i 3).isLt; omega⟩))

/-- The transform: entry (b, s, c) is band s / 4096 of the pair of samples 2·(s % 4096), 2·(s % 4096) + 1. -/
def dwt (x : Signal.Idx → F .f32) : Signal.Idx → F .f32 :=
  fun i => butterfly ((i 1).val / 4096)
    (x (ix3 (i 0) ⟨2 * ((i 1).val % 4096), by omega⟩ (i 2)))
    (x (ix3 (i 0) ⟨2 * ((i 1).val % 4096) + 1, by omega⟩ (i 2)))

/-- Laying the pairs side by side: entry (b, k, l) of the re-read signal is sample 2k + l / 512, channel l % 512. -/
theorem pairs_apply (x : Signal.Idx → F .f32) (h : Signal.ShapeCasts Pairs) (b : Fin 16) (k : Fin 4096) (l : Fin 1024) :
    shapeCast Pairs x h (ix3 b k l)
      = x (ix3 b ⟨2 * k.val + l.val / 512, by omega⟩ ⟨l.val % 512, by omega⟩) := by
  refine shapeCast_apply x h _ _ ?_
  rw [Shape.rowMajor_val_three, Shape.rowMajor_val_three]
  show (b.val * 8192 + (2 * k.val + l.val / 512)) * 512 + l.val % 512 = (b.val * 4096 + k.val) * 1024 + l.val
  omega

/-- The bands of the side-by-side pairs, listed band 0 first along the time axis, are the transform. -/
theorem bands_of_pairs (x : Signal.Idx → F .f32) (h₁ : Signal.ShapeCasts Pairs) (h₂ : Bands.ShapeCasts Signal) :
    shapeCast Signal (bands (shapeCast Pairs x h₁)) h₂ = dwt x := by
  funext i
  obtain ⟨b, s, c, rfl⟩ : ∃ (b : Fin 16) (s : Fin 8192) (c : Fin 512), i = ix3 b s c := ⟨i 0, i 1, i 2, eq_ix3 i⟩
  have hk : (Bands.rowMajor (ix4 b (⟨s.val / 4096, by omega⟩ : Fin 2) (⟨s.val % 4096, by omega⟩ : Fin 4096) c)).val
      = (Signal.rowMajor (ix3 b s c)).val := by
    rw [Shape.rowMajor_val_four, Shape.rowMajor_val_three]
    show ((b.val * 2 + s.val / 4096) * 4096 + s.val % 4096) * 512 + c.val = (b.val * 8192 + s.val) * 512 + c.val
    omega
  refine (shapeCast_apply _ h₂ _ _ hk).trans ?_
  show butterfly (s.val / 4096)
      (shapeCast Pairs x h₁ (ix3 b (⟨s.val % 4096, _⟩ : Fin 4096) (⟨c.val, _⟩ : Fin 1024)))
      (shapeCast Pairs x h₁ (ix3 b (⟨s.val % 4096, _⟩ : Fin 4096) (⟨512 + c.val, _⟩ : Fin 1024)))
    = butterfly (s.val / 4096) (x (ix3 b ⟨2 * (s.val % 4096), _⟩ c)) (x (ix3 b ⟨2 * (s.val % 4096) + 1, _⟩ c))
  rw [pairs_apply, pairs_apply]
  have e0 : (ix3 b (⟨2 * (s.val % 4096) + c.val / 512, by omega⟩ : Fin 8192) (⟨c.val % 512, by omega⟩ : Fin 512) : Signal.Idx)
      = ix3 b ⟨2 * (s.val % 4096), by omega⟩ c := by
    funext a; apply Fin.ext
    match a with
    | ⟨0, _⟩ => rfl
    | ⟨1, _⟩ => show 2 * (s.val % 4096) + c.val / 512 = 2 * (s.val % 4096); omega
    | ⟨2, _⟩ => show c.val % 512 = c.val; omega
  have e1 : (ix3 b (⟨2 * (s.val % 4096) + (512 + c.val) / 512, by omega⟩ : Fin 8192) (⟨(512 + c.val) % 512, by omega⟩ : Fin 512) : Signal.Idx)
      = ix3 b ⟨2 * (s.val % 4096) + 1, by omega⟩ c := by
    funext a; apply Fin.ext
    match a with
    | ⟨0, _⟩ => rfl
    | ⟨1, _⟩ => show 2 * (s.val % 4096) + (512 + c.val) / 512 = 2 * (s.val % 4096) + 1; omega
    | ⟨2, _⟩ => show (512 + c.val) % 512 = c.val; omega
  rw [e0, e1]

end Haar

end
-- ==== Proof.Block.lean ====
/-
  One grid point of the kernel. The body loads the point's whole input block, a [1, 1024, 1024] array holding 1024 pairs
  side by side (the even sample's 512 channels, then the odd sample's), reads it as a 1024 × 1024 matrix, cuts the
  left and the right 512 columns, and stores the scaled sum of the two halves in band 0 of the [1, 2, 1024, 512]
  output block and the scaled difference in band 1. The two stores tile the output block, so the block the body
  leaves is Haar.bands of the input block, entry by entry.
-/
import proofs.«124199_j86955907874874_2_alg».proof.Proof.Gen.KernelIdeal.Frame
import proofs.«124199_j86955907874874_2_alg».proof.Proof.Haar

noncomputable section

namespace Cert.KernelIdeal.Block

open Cert.KernelIdeal Cert.KernelIdeal.Gen Idealize.ShloMosaic Idealize.ShloMosaic.ValueIdx

variable {F : FTy → Type} [FloatOps F]

theorem zero_offsets : (![0, 0, 0] : Fin 3 → Nat) = fun _ => 0 := funext fun a => by fin_cases a <;> rfl

/-! ## The loaded block as a matrix and its two halves -/

/-- Row r, column l of the matrix is entry (0, r, l) of the block. -/
theorem matrix_apply (x0 : Vec F S1x1024x1024 .f32) (r : Fin 1024) (l : Fin 1024) :
    k0_pay1 x0 (ix2 r l) = x0 (ix3 (0 : Fin 1) r l) := by
  show shapeCast S1024x1024 x0 shapeCasts_S1x1024x1024_S1024x1024 (ix2 r l) = _
  refine shapeCast_apply x0 _ _ _ ?_
  rw [Shape.rowMajor_val_three, Shape.rowMajor_val_two]
  show (0 * 1024 + r.val) * 1024 + l.val = r.val * 1024 + l.val
  omega

/-- Column c of the left 512 columns of a 1024 × 1024 matrix is its column c. -/
theorem left_cols (M : FVec F S1024x1024 .f32) (r : Fin 1024) (c : Fin 512) :
    extractStridedSlice S1024x512 ![0, 0] M slices_S1024x1024_o0_0_S1024x512 (ix2 r c)
      = M (ix2 r (⟨c.val, by omega⟩ : Fin 1024)) :=
  extractStridedSlice_apply (s := S1024x1024) (t := S1024x512) ![0, 0] M slices_S1024x1024_o0_0_S1024x512 (ix2 r c)
    (ix2 r (⟨c.val, by omega⟩ : Fin 1024))
    (fun a => match a with
      | ⟨0, _⟩ => by show r.val = 0 + r.val; omega
      | ⟨1, _⟩ => by show c.val = 0 + c.val; omega)

/-- Column c of the right 512 columns is its column 512 + c. -/
theorem right_cols (M : FVec F S1024x1024 .f32) (r : Fin 1024) (c : Fin 512) :
    extractStridedSlice S1024x512 ![0, 512] M slices_S1024x1024_o0_512_S1024x512 (ix2 r c)
      = M (ix2 r (⟨512 + c.val, by omega⟩ : Fin 1024)) :=
  extractStridedSlice_apply (s := S1024x1024) (t := S1024x512) ![0, 512] M slices_S1024x1024_o0_512_S1024x512 (ix2 r c)
    (ix2 r (⟨512 + c.val, by omega⟩ : Fin 1024))
    (fun a => match a with
      | ⟨0, _⟩ => by show r.val = 0 + r.val; omega
      | ⟨1, _⟩ => by show 512 + c.val = 512 + c.val; rfl)

/-- The left half: column c is the even sample's channel c. -/
theorem left_apply (x0 : Vec F S1x1024x1024 .f32) (r : Fin 1024) (c : Fin 512) :
    k0_pay2 x0 (ix2 r c) = x0 (ix3 (0 : Fin 1) r (⟨c.val, by omega⟩ : Fin 1024)) := by
  show extractStridedSlice S1024x512 ![0, 0] (k0_pay1 x0) slices_S1024x1024_o0_0_S1024x512 (ix2 r c) = _
  rw [left_cols, matrix_apply]

/-- The right half: column c is the odd sample's channel c, column 512 + c of the matrix. -/
theorem right_apply (x0 : Vec F S1x1024x1024 .f32) (r : Fin 1024) (c : Fin 512) :
    k0_pay3 x0 (ix2 r c) = x0 (ix3 (0 : Fin 1) r (⟨512 + c.val, by omega⟩ : Fin 1024)) := by
  show extractStridedSlice S1024x512 ![0, 512] (k0_pay1 x0) slices_S1024x1024_o0_512_S1024x512 (ix2 r c) = _
  rw [right_cols, matrix_apply]

/-! ## The two stored values -/

/-- The first store's value at (0, 0, r, c): band 0 of the pair in row r at channel c. -/
theorem sum_apply (x0 : Vec F S1x1024x1024 .f32) (r : Fin 1024) (c : Fin 512) :
    k0_pay4 x0 (ix4 (0 : Fin 1) (0 : Fin 1) r c)
      = Haar.butterfly 0 (x0 (ix3 (0 : Fin 1) r (⟨c.val, by omega⟩ : Fin 1024)))
          (x0 (ix3 (0 : Fin 1) r (⟨512 + c.val, by omega⟩ : Fin 1024))) := by
  show shapeCast S1x1x1024x512 (mulf (addf (k0_pay2 x0) (k0_pay3 x0)) (broadcast S1024x512 (Scalar.ofBits .f32 0x3F3504F3#32)))
      shapeCasts_S1024x512_S1x1x1024x512 (ix4 (0 : Fin 1) (0 : Fin 1) r c) = _
  refine (shapeCast_apply _ _ _ (ix2 r c) ?_).trans ?_
  · rw [Shape.rowMajor_val_two, Shape.rowMajor_val_four]
    show r.val * 512 + c.val = ((0 * 1 + 0) * 1024 + r.val) * 512 + c.val
    omega
  · show FloatOps.mulf (FloatOps.addf (k0_pay2 x0 (ix2 r c)) (k0_pay3 x0 (ix2 r c))) (FloatOps.ofBits .f32 0x3F3504F3#32) = _
    rw [left_apply, right_apply]
    unfold Haar.butterfly Haar.coeff
    rw [if_pos rfl]

/-- The second store's value at (0, 0, r, c): band 1 of the same pair. -/
theorem diff_apply (x0 : Vec F S1x1024x1024 .f32) (r : Fin 1024) (c : Fin 512) :
    k0_pay5 x0 (ix4 (0 : Fin 1) (0 : Fin 1) r c)
      = Haar.butterfly 1 (x0 (ix3 (0 : Fin 1) r (⟨c.val, by omega⟩ : Fin 1024)))
          (x0 (ix3 (0 : Fin 1) r (⟨512 + c.val, by omega⟩ : Fin 1024))) := by
  show shapeCast S1x1x1024x512 (mulf (subf (k0_pay2 x0) (k0_pay3 x0)) (broadcast S1024x512 (Scalar.ofBits .f32 0x3F3504F3#32)))
      shapeCasts_S1024x512_S1x1x1024x512 (ix4 (0 : Fin 1) (0 : Fin 1) r c) = _
  refine (shapeCast_apply _ _ _ (ix2 r c) ?_).trans ?_
  · rw [Shape.rowMajor_val_two, Shape.rowMajor_val_four]
    show r.val * 512 + c.val = ((0 * 1 + 0) * 1024 + r.val) * 512 + c.val
    omega
  · show FloatOps.mulf (FloatOps.subf (k0_pay2 x0 (ix2 r c)) (k0_pay3 x0 (ix2 r c))) (FloatOps.ofBits .f32 0x3F3504F3#32) = _
    rw [left_apply, right_apply]
    unfold Haar.butterfly Haar.coeff
    rw [if_neg Nat.one_ne_zero]

/-! ## Where the two stores land -/

/-- Every index of a [1, 1, 1024, 512] piece is (0, 0, r, c). -/
theorem piece_idx (x : S1x1x1024x512.Idx) : ∃ (r : Fin 1024) (c : Fin 512), x = ix4 (0 : Fin 1) (0 : Fin 1) r c := by
  refine ⟨x 2, x 3, ?_⟩
  funext a; apply Fin.ext
  match a with
  | ⟨0, _⟩ => show (x 0).val = 0; have h : (x 0).val < 1 := (x 0).isLt; omega
  | ⟨1, _⟩ => show (x 1).val = 0; have h : (x 1).val < 1 := (x 1).isLt; omega
  | ⟨2, _⟩ => rfl
  | ⟨3, _⟩ => rfl

/-- The first store writes band 0 of the block. -/
theorem sum_lands (r : Fin 1024) (c : Fin 512) :
    r0_1.emb (ix4 (0 : Fin 1) (0 : Fin 1) r c) = ix4 (0 : Fin 1) (0 : Fin 2) r c := by
  funext a; apply Fin.ext
  match a with
  | ⟨0, _⟩ => rfl
  | ⟨1, _⟩ => rfl
  | ⟨2, _⟩ => show 0 + 1 * r.val = r.val; omega
  | ⟨3, _⟩ => show 0 + 1 * c.val = c.val; omega

/-- The second store writes band 1 of the block. -/
theorem diff_lands (r : Fin 1024) (c : Fin 512) :
    r0_2.emb (ix4 (0 : Fin 1) (0 : Fin 1) r c) = ix4 (0 : Fin 1) (1 : Fin 2) r c := by
  funext a; apply Fin.ext
  match a with
  | ⟨0, _⟩ => rfl
  | ⟨1, _⟩ => rfl
  | ⟨2, _⟩ => show 0 + 1 * r.val = r.val; omega
  | ⟨3, _⟩ => show 0 + 1 * c.val = c.val; omega

/-- Each stored piece is the matching part of the bands of the block. -/
theorem sum_piece (x0 : Vec F S1x1024x1024 .f32) (x : S1x1x1024x512.Idx) :
    k0_pay4 x0 x = Haar.bands (B := 1) (K := 1024) x0 (r0_1.emb x) := by
  obtain ⟨r, c, rfl⟩ := piece_idx x
  rw [sum_lands, sum_apply]
  rfl

theorem diff_piece (x0 : Vec F S1x1024x1024 .f32) (x : S1x1x1024x512.Idx) :
    k0_pay5 x0 x = Haar.bands (B := 1) (K := 1024) x0 (r0_2.emb x) := by
  obtain ⟨r, c, rfl⟩ := piece_idx x
  rw [diff_lands, diff_apply]
  rfl

/-! ## The block the body leaves -/

/-- After the body the output block holds the bands of the input block. -/
theorem body_eq (x0 : Vec F S1x1024x1024 .f32) : out0_1 x0 = Haar.bands (B := 1) (K := 1024) x0 := by
  funext y
  unfold out0_1
  rw [View.ld_unit_zero (S := S1x1024x1024) zero_offsets]
  refine View.canon_apply_of_pieces (Haar.bands (B := 1) (K := 1024) x0) _ ?_ y (cover0_1 _ _ y)
  intro p hp x
  simp only [List.mem_cons, List.not_mem_nil, or_false] at hp
  rcases hp with rfl | rfl
  · exact diff_piece x0 x
  · exact sum_piece x0 x

end Cert.KernelIdeal.Block

end
-- ==== Proof.Whole.lean ====
/-
  From the grid's blocks to the whole arrays. The grid has 16 × 4 points; point (p, q) reads rows 1024·q … 1024·q + 1023
  of batch p of the side-by-side pairs [16, 4096, 1024] and writes the same rows of both bands of batch p of the bands
  array [16, 2, 4096, 512]. Because the bands of a row depend on that row alone, what a point writes back is its block
  of ONE array, Haar.bands of the whole pairs array; the 64 blocks tile the bands array, so after the run the array is
  that function. The pairs array is the signal re-read row-major, and the program's result is the bands array re-read
  row-major: together, by Haar.bands_of_pairs, the result is Haar.dwt of the signal.
-/
import proofs.«124199_j86955907874874_2_alg».proof.Proof.Block
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The two index maps over the grid -/

/-- At every point the input block and the output block sit at the same batch and the same run of 1024 rows, the input
    block spans all 1024 lanes, and the output block spans both bands and all 512 channels. -/
theorem idx_facts : ∀ t : Fin cfg0.N,
    win0_0.index t (0 : Fin 3) = win0_1.index t (0 : Fin 4)
    ∧ win0_0.index t (1 : Fin 3) = win0_1.index t (2 : Fin 4)
    ∧ win0_0.index t (2 : Fin 3) = 0
    ∧ win0_1.index t (1 : Fin 4) = 0
    ∧ win0_1.index t (3 : Fin 4) = 0 :=
  (by decide +kernel : ∀ t : Fin grid0.N, _)

/-- Every (batch, run of rows) is some point's. -/
theorem idx_onto : ∀ (p : Fin 16) (q : Fin 4), ∃ t : Fin cfg0.N, win0_1.index t = ![p.val, 0, q.val, 0] :=
  (by decide +kernel : ∀ (p : Fin 16) (q : Fin 4), ∃ t : Fin grid0.N, win0_1.index t = ![p.val, 0, q.val, 0])

/-! ## What a point writes back -/

/-- Point t writes back block t of the bands of the whole pairs array. -/
theorem flushed_eq (c : Dev nD) (t : Fin cfg0.N) :
    (dats m 0 c).flushed 1 t
      = ((cfg0.win 1).blk t).view.read (Elt F) (Haar.bands (B := 16) (K := 4096) (V m c main_v0)) := by
  show (cfg0.win 1).cut (grid0.coords t) ((dats m 0 c).after 1 t) = _
  rw [after0_1, Block.body_eq]
  obtain ⟨e0, e1, e2, e3, e4⟩ := idx_facts t
  funext j
  show Haar.butterfly (j 1).val
      (V m c main_v0 (((cfg0.win 0).blk t).view.emb (ix3 (j 0) (j 2) ⟨(j 3).val, by have h : (j 3).val < 512 := (j 3).isLt; omega⟩)))
      (V m c main_v0 (((cfg0.win 0).blk t).view.emb (ix3 (j 0) (j 2) ⟨512 + (j 3).val, by have h : (j 3).val < 512 := (j 3).isLt; omega⟩)))
    = Haar.bands (B := 16) (K := 4096) (V m c main_v0) (((cfg0.win 1).blk t).view.emb j)
  refine Haar.butterfly_congr ?_ (congrArg (V m c main_v0) ?_) (congrArg (V m c main_v0) ?_)
  · show (j 1).val = win0_1.index t (1 : Fin 4) * 2 + 1 * (j 1).val
    omega
  · funext a; apply Fin.ext
    match a with
    | ⟨0, _⟩ => show win0_0.index t (0 : Fin 3) * 1 + 1 * (j 0).val = win0_1.index t (0 : Fin 4) * 1 + 1 * (j 0).val; omega
    | ⟨1, _⟩ => show win0_0.index t (1 : Fin 3) * 1024 + 1 * (j 2).val = win0_1.index t (2 : Fin 4) * 1024 + 1 * (j 2).val; omega
    | ⟨2, _⟩ => show win0_0.index t (2 : Fin 3) * 1024 + 1 * (j 3).val = win0_1.index t (3 : Fin 4) * 512 + 1 * (j 3).val; omega
  · funext a; apply Fin.ext
    match a with
    | ⟨0, _⟩ => show win0_0.index t (0 : Fin 3) * 1 + 1 * (j 0).val = win0_1.index t (0 : Fin 4) * 1 + 1 * (j 0).val; omega
    | ⟨1, _⟩ => show win0_0.index t (1 : Fin 3) * 1024 + 1 * (j 2).val = win0_1.index t (2 : Fin 4) * 1024 + 1 * (j 2).val; omega
    | ⟨2, _⟩ => show win0_0.index t (2 : Fin 3) * 1024 + 1 * (512 + (j 3).val) = 512 + (win0_1.index t (3 : Fin 4) * 512 + 1 * (j 3).val); omega

/-! ## The blocks tile the bands array -/

/-- An index of the bands array is in point t's block iff each coordinate is in the block's range on its axis. -/
theorem mem_blk (t : Fin cfg0.N) (i : S16x2x4096x512.Idx) :
    i ∈ ((cfg0.win 1).blk t).view.set ↔ ∀ a : Fin 4, win0_1.index t a * S1x2x1024x512.size a ≤ (i a).val ∧ (i a).val < win0_1.index t a * S1x2x1024x512.size a + S1x2x1024x512.size a := by
  show i ∈ ((View.whole main_v1).slice (win0_1.rect t)).set ↔ _
  rw [View.set_slice_whole, Rect.mem_set_unit]
  exact Iff.rfl

/-- Every index is in the block of the point at its batch and its run of 1024 rows. -/
theorem cover (i : S16x2x4096x512.Idx) :
    ∃ t : Fin cfg0.N, (cfg0.win 1).flush t = true ∧ i ∈ ((cfg0.win 1).blk t).view.set := by
  have hi0 : (i 0).val < 16 := (i 0).isLt
  have hi1 : (i 1).val < 2 := (i 1).isLt
  have hi2 : (i 2).val < 4096 := (i 2).isLt
  have hi3 : (i 3).val < 512 := (i 3).isLt
  obtain ⟨t, ht⟩ := idx_onto ⟨(i 0).val, hi0⟩ ⟨(i 2).val / 1024, by omega⟩
  have q0 : win0_1.index t (0 : Fin 4) = (i 0).val := congrFun ht 0
  have q1 : win0_1.index t (1 : Fin 4) = 0 := congrFun ht 1
  have q2 : win0_1.index t (2 : Fin 4) = (i 2).val / 1024 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 2 ≤ (i 1).val ∧ (i 1).val < win0_1.index t (1 : Fin 4) * 2 + 2; omega
  | ⟨2, _⟩ => show win0_1.index t (2 : Fin 4) * 1024 ≤ (i 2).val ∧ (i 2).val < win0_1.index t (2 : Fin 4) * 1024 + 1024; omega
  | ⟨3, _⟩ => show win0_1.index t (3 : Fin 4) * 512 ≤ (i 3).val ∧ (i 3).val < win0_1.index t (3 : Fin 4) * 512 + 512; omega

/-- After the run the bands array holds the bands of the pairs array as the region found it. -/
theorem final (c : Dev nD) :
    (dats m 0 c).arrAt 1 cfg0.N = Haar.bands (B := 16) (K := 4096) (V m c main_v0) :=
  (dats m 0 c).arrAt_eq_of_cover 1 (Haar.bands (B := 16) (K := 4096) (V m c main_v0)) (fun t _ => flushed_eq m c t) cover

/-! ## Before and after the region -/

/-- The region finds the pairs array holding the signal re-read row-major. -/
theorem pairs_eq (c : Dev nD) :
    (V m c main_v0 : S16x4096x1024.Idx → Elt F .f32)
      = shapeCast S16x4096x1024 (m ((c : Thread nD τ).loc main_arg0)) shapeCasts_S16x8192x512_S16x4096x1024 := by
  show StableHlo.after hostOps0 (fun b => m (c, b)) (Proc.devRef .tc main_v0) = _
  after_results
  rfl

/-- The program's result, the bands array re-read row-major, is the Haar step of the signal. -/
theorem result_eq (c : Dev nD) :
    Pipeline.afterTail₀ cfgs (dats m) 0 (V0 m) [hostOps1] c main_v2 = Haar.dwt (m ((c : Thread nD τ).loc main_arg0)) := by
  unfold Pipeline.afterTail₀
  show StableHlo.after hostOps1 _ (Proc.devRef .tc main_v2) = _
  after_results
  have e : Pipeline.withArrays spec0 c (V0 m c) (fun w => (dats m 0 c).arrAt w cfg0.N) (Proc.devRef .tc main_v1)
      = Haar.bands (B := 16) (K := 4096) (V m c main_v0) :=
    (Pipeline.withArrays_arr spec0 launch0.win.arr_inj c _ _ 1).trans (final m c)
  show shapeCast S16x8192x512
      (Pipeline.withArrays spec0 c (V0 m c) (fun w => (dats m 0 c).arrAt w cfg0.N) (Proc.devRef .tc main_v1))
      shapeCasts_S16x2x4096x512_S16x8192x512 = _
  rw [e, pairs_eq]
  exact Haar.bands_of_pairs _ _ _

/-! ## The run, read -/

/-- Every weakly fair execution of the program terminates with the result holding the Haar step of the argument, the
    argument unchanged. -/
theorem run : θ_run defs (onTc (τ := τ) (main (F := F))) ⟨m, fun _ => 0, ρ⟩ fun r => ∀ c : Dev nD,
      r.2.mem ((c : Thread nD τ).loc main_v2) = Haar.dwt (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Whole

end
-- ==== Proof.RefIsHaar.lean ====
/-
  The reference computes the Haar step: it reads the signal as [16, 4096, 2, 512] (pair, position in the pair), takes the
  even samples (position 0) and the odd samples (position 1) as two [16, 4096, 512] arrays, forms the scaled sums and the
  scaled differences, and joins the two along the time axis. Read index by index this is Haar.dwt: an entry with time
  coordinate s below 4096 falls in the first joined piece and is band 0 of pair s, one with s at or above 4096 falls in
  the second piece and is band 1 of pair s − 4096.
-/
import proofs.«124199_j86955907874874_2_alg».proof.Proof.Gen.ReferenceIdeal.Read
import proofs.«124199_j86955907874874_2_alg».proof.Proof.Haar

noncomputable section

namespace Cert.ReferenceIdeal.IsHaar

open Cert.ReferenceIdeal Cert.ReferenceIdeal.Read Idealize.ShloMosaic Idealize.ShloMosaic.ValueIdx

variable {F : FTy → Type} [FloatOps F]

/-! ## Where each layout operation of the reference reads -/

/-- Dropping the unit axis: entry (b, k, c) of a [16, 4096, 512] array reads (b, k, 0, c) of the [16, 4096, 1, 512] one. -/
theorem squeeze_idx (b : Fin 16) (k : Fin 4096) (c : Fin 512) :
    idx_main_v2 (ix3 b k c) = ix4 b k (0 : Fin 1) c := by
  funext a; apply Fin.ext
  match a with
  | ⟨0, _⟩ => show ((b.val * 4096 + k.val) * 512 + c.val) / 2097152 = b.val; omega
  | ⟨1, _⟩ => show ((b.val * 4096 + k.val) * 512 + c.val) / 512 % 4096 = k.val; omega
  | ⟨2, _⟩ => rfl
  | ⟨3, _⟩ => show ((b.val * 4096 + k.val) * 512 + c.val) % 512 = c.val; omega

/-- The same for the second such operation. -/
theorem squeeze_idx' (b : Fin 16) (k : Fin 4096) (c : Fin 512) :
    idx_main_v4 (ix3 b k c) = ix4 b k (0 : Fin 1) c := by
  funext a; apply Fin.ext
  match a with
  | ⟨0, _⟩ => show ((b.val * 4096 + k.val) * 512 + c.val) / 2097152 = b.val; omega
  | ⟨1, _⟩ => show ((b.val * 4096 + k.val) * 512 + c.val) / 512 % 4096 = k.val; omega
  | ⟨2, _⟩ => rfl
  | ⟨3, _⟩ => show ((b.val * 4096 + k.val) * 512 + c.val) % 512 = c.val; omega

/-- The slice at position 0 of the pair reads position 0. -/
theorem even_idx (b : Fin 16) (k : Fin 4096) (c : Fin 512) :
    idx_main_v1 (ix4 b k (0 : Fin 1) c) = ix4 b k (0 : Fin 2) c := by
  funext a; apply Fin.ext
  match a with
  | ⟨0, _⟩ => rfl
  | ⟨1, _⟩ => rfl
  | ⟨2, _⟩ => rfl
  | ⟨3, _⟩ => rfl

/-- The slice at position 1 of the pair reads position 1. -/
theorem odd_idx (b : Fin 16) (k : Fin 4096) (c : Fin 512) :
    idx_main_v3 (ix4 b k (0 : Fin 1) c) = ix4 b k (1 : Fin 2) c := by
  funext a; apply Fin.ext
  match a with
  | ⟨0, _⟩ => rfl
  | ⟨1, _⟩ => rfl
  | ⟨2, _⟩ => rfl
  | ⟨3, _⟩ => rfl

/-- Position j of pair k is sample 2k + j of the signal. -/
theorem pair_idx (b : Fin 16) (k : Fin 4096) (j : Fin 2) (c : Fin 512) :
    idx_main_v0 (ix4 b k j c) = ix3 b (⟨2 * k.val + j.val, by omega⟩ : Fin 8192) c := by
  funext a; apply Fin.ext
  match a with
  | ⟨0, _⟩ => show (((b.val * 4096 + k.val) * 2 + j.val) * 512 + c.val) / 4194304 = b.val; omega
  | ⟨1, _⟩ => show (((b.val * 4096 + k.val) * 2 + j.val) * 512 + c.val) / 512 % 8192 = 2 * k.val + j.val; omega
  | ⟨2, _⟩ => show (((b.val * 4096 + k.val) * 2 + j.val) * 512 + c.val) % 512 = c.val; omega

/-! ## The two sample arrays and the two bands -/

/-- The even samples: entry (b, k, c) is sample 2k. -/
theorem even_sample (x0 : (⟨S16x8192x512, .f32⟩ : BufTy).Contents (Elt F)) (b : Fin 16) (k : Fin 4096) (c : Fin 512) :
    val_main_v2 (F := F) x0 (ix3 b k c) = x0 (ix3 b (⟨2 * k.val + (0 : Fin 2).val, by omega⟩ : Fin 8192) c) := by
  rw [val_main_v2_apply, squeeze_idx, val_main_v1_apply, even_idx, val_main_v0_apply, pair_idx]

/-- The odd samples: entry (b, k, c) is sample 2k + 1. -/
theorem odd_sample (x0 : (⟨S16x8192x512, .f32⟩ : BufTy).Contents (Elt F)) (b : Fin 16) (k : Fin 4096) (c : Fin 512) :
    val_main_v4 (F := F) x0 (ix3 b k c) = x0 (ix3 b (⟨2 * k.val + (1 : Fin 2).val, by omega⟩ : Fin 8192) c) := by
  rw [val_main_v4_apply, squeeze_idx', val_main_v3_apply, odd_idx, val_main_v0_apply, pair_idx]

/-- The scaled sums are band 0 of each pair. -/
theorem approx_apply (x0 : (⟨S16x8192x512, .f32⟩ : BufTy).Contents (Elt F)) (b : Fin 16) (k : Fin 4096) (c : Fin 512) :
    val_main_v7 (F := F) x0 (ix3 b k c)
      = Haar.butterfly 0 (x0 (ix3 b (⟨2 * k.val + (0 : Fin 2).val, by omega⟩ : Fin 8192) c))
          (x0 (ix3 b (⟨2 * k.val + (1 : Fin 2).val, by omega⟩ : Fin 8192) c)) := by
  rw [val_main_v7_apply, val_main_v5_apply, val_main_v6_apply, val_main_cst_apply, even_sample, odd_sample]
  unfold Haar.butterfly Haar.coeff
  rw [if_pos rfl]

/-- The scaled differences are band 1 of each pair. -/
theorem detail_apply (x0 : (⟨S16x8192x512, .f32⟩ : BufTy).Contents (Elt F)) (b : Fin 16) (k : Fin 4096) (c : Fin 512) :
    val_main_v10 (F := F) x0 (ix3 b k c)
      = Haar.butterfly 1 (x0 (ix3 b (⟨2 * k.val + (0 : Fin 2).val, by omega⟩ : Fin 8192) c))
          (x0 (ix3 b (⟨2 * k.val + (1 : Fin 2).val, by omega⟩ : Fin 8192) c)) := by
  rw [val_main_v10_apply, val_main_v8_apply, val_main_v9_apply, val_main_cst_0_apply, even_sample, odd_sample]
  unfold Haar.butterfly Haar.coeff
  rw [if_neg Nat.one_ne_zero]

/-! ## The joined result -/

/-- The reference's result is the Haar step of its argument. -/
theorem result_eq_dwt (x0 : (⟨S16x8192x512, .f32⟩ : BufTy).Contents (Elt F)) :
    val_main_v11 (F := F) x0 = Haar.dwt x0 := by
  funext i
  obtain ⟨b, s, c, rfl⟩ : ∃ (b : Fin 16) (s : Fin 8192) (c : Fin 512), i = ix3 b s c := ⟨i 0, i 1, i 2, eq_ix3 i⟩
  unfold val_main_v11
  show _ = Haar.butterfly (s.val / 4096)
      (x0 (ix3 b (⟨2 * (s.val % 4096), by omega⟩ : Fin 8192) c)) (x0 (ix3 b (⟨2 * (s.val % 4096) + 1, by omega⟩ : Fin 8192) c))
  by_cases hs : s.val < 4096
  · refine (concatenate_pair_apply_left (t := S16x8192x512) (s₁ := S16x4096x512) (s₂ := S16x4096x512) (1 : Fin S16x8192x512.rank) _ _ _ (ix3 b s c) rfl (ix3 b (⟨s.val, hs⟩ : Fin 4096) c) ?_).trans ?_
    · intro a
      match a with
      | ⟨0, _⟩ => rfl
      | ⟨1, _⟩ => rfl
      | ⟨2, _⟩ => rfl
    · rw [approx_apply]
      have hq : s.val / 4096 = 0 := by omega
      have e0 : (⟨2 * (⟨s.val, hs⟩ : Fin 4096).val + (0 : Fin 2).val, by omega⟩ : Fin 8192) = ⟨2 * (s.val % 4096), by omega⟩ :=
        Fin.ext (by show 2 * s.val + 0 = 2 * (s.val % 4096); omega)
      have e1 : (⟨2 * (⟨s.val, hs⟩ : Fin 4096).val + (1 : Fin 2).val, by omega⟩ : Fin 8192) = ⟨2 * (s.val % 4096) + 1, by omega⟩ :=
        Fin.ext (by show 2 * s.val + 1 = 2 * (s.val % 4096) + 1; omega)
      rw [hq, e0, e1]
  · have hs' : s.val - 4096 < 4096 := by omega
    refine (concatenate_pair_apply_right (t := S16x8192x512) (s₁ := S16x4096x512) (s₂ := S16x4096x512) (1 : Fin S16x8192x512.rank) _ _ _ (ix3 b s c) rfl rfl (ix3 b (⟨s.val - 4096, hs'⟩ : Fin 4096) c) ?_ ?_).trans ?_
    · intro a hne
      fin_cases a
      · rfl
      · exact absurd rfl hne
      · rfl
    · show (s.val - 4096) + 4096 = s.val
      omega
    · rw [detail_apply]
      have hq : s.val / 4096 = 1 := by omega
      have e0 : (⟨2 * (⟨s.val - 4096, hs'⟩ : Fin 4096).val + (0 : Fin 2).val, by omega⟩ : Fin 8192) = ⟨2 * (s.val % 4096), by omega⟩ :=
        Fin.ext (by show 2 * (s.val - 4096) + 0 = 2 * (s.val % 4096); omega)
      have e1 : (⟨2 * (⟨s.val - 4096, hs'⟩ : Fin 4096).val + (1 : Fin 2).val, by omega⟩ : Fin 8192) = ⟨2 * (s.val % 4096) + 1, by omega⟩ :=
        Fin.ext (by show 2 * (s.val - 4096) + 1 = 2 * (s.val % 4096) + 1; omega)
      rw [hq, e0, e1]

end Cert.ReferenceIdeal.IsHaar

end
-- ==== Proof.lean ====
/-
  The kernel and its reference compute one function, the single-level Haar (db1) wavelet step along the time axis of
  a [16, 8192, 512] signal: consecutive samples are paired, each pair (e, o) gives the scaled sum (e + o)·κ and the
  scaled difference (e − o)·κ with κ the single-precision number nearest 1/√2, and the result lists the 4096 sums
  followed by the 4096 differences along the time axis (Proof/Haar.lean: Haar.dwt).

  The kernel re-reads the signal with each pair side by side along the last axis, runs a 16 × 4 grid whose point
  (p, q) turns 1024 pairs of batch p into 1024 sums and 1024 differences stored in two separate bands
  (Proof/Block.lean), and re-reads the bands array so that the sums precede the differences; the 64 blocks tile the
  bands array, so the whole array is the bands of the whole pairs array (Proof/Whole.lean). The reference slices the
  even and the odd samples out of the signal read as [16, 4096, 2, 512], forms the same sums and differences with the
  same coefficient and joins them along the time axis (Proof/RefIsHaar.lean). Both sides apply the same operations
  to the same samples, so no law of arithmetic and no finiteness of the input is used: the proof is index bookkeeping,
  and the precondition is never opened.

  The three frames are the generated ones (the reference's is its generated run with the result dropped); the
  idealization rewrote no operation, so the preservation claim is trivial.
-/
import proofs.«124199_j86955907874874_2_alg».proof.Defs
import proofs.«124199_j86955907874874_2_alg».proof.Proof.Gen.Kernel
import proofs.«124199_j86955907874874_2_alg».proof.Proof.Gen.Kernel.Skeleton
import proofs.«124199_j86955907874874_2_alg».proof.Proof.Gen.Kernel.Launch
import proofs.«124199_j86955907874874_2_alg».proof.Proof.Gen.Kernel.Points
import proofs.«124199_j86955907874874_2_alg».proof.Proof.Gen.Kernel.Frame
import proofs.«124199_j86955907874874_2_alg».proof.Proof.Gen.KernelIdeal
import proofs.«124199_j86955907874874_2_alg».proof.Proof.Gen.KernelIdeal.Skeleton
import proofs.«124199_j86955907874874_2_alg».proof.Proof.Gen.KernelIdeal.Launch
import proofs.«124199_j86955907874874_2_alg».proof.Proof.Gen.KernelIdeal.Points
import proofs.«124199_j86955907874874_2_alg».proof.Proof.Gen.KernelIdeal.Frame
import proofs.«124199_j86955907874874_2_alg».proof.Proof.Gen.ReferenceIdeal
import proofs.«124199_j86955907874874_2_alg».proof.Proof.Gen.Pre_finite_inputs
import proofs.«124199_j86955907874874_2_alg».proof.Proof.Gen.ReferenceIdeal.Run
import proofs.«124199_j86955907874874_2_alg».proof.Proof.Gen.ReferenceIdeal.Read
import proofs.«124199_j86955907874874_2_alg».proof.Proof.Whole
import proofs.«124199_j86955907874874_2_alg».proof.Proof.RefIsHaar
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the signal both programs end with the Haar step of it. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.IsHaar.result_eq_dwt, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
